-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x10000 .f32) (main_arg1 : FVec F S10000x128 .f32) (main_arg2 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x128 : Shape := ⟨2, ![128, 128]⟩
abbrev S608x10000 : Shape := ⟨2, ![608, 10000]⟩
abbrev S608x128 : Shape := ⟨2, ![608, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .local _ .vmem, ⟨0, _⟩ => ⟨S608x10000, .f32⟩
  | .local _ .vmem, ⟨1, _⟩ => ⟨S608x10000, .f32⟩
  | .local _ .vmem, ⟨2, _⟩ => ⟨S10000x128, .f32⟩
  | .local _ .vmem, ⟨3, _⟩ => ⟨S128x128, .f32⟩
  | .local _ .vmem, ⟨4, _⟩ => ⟨S608x128, .f32⟩
  | .local _ .vmem, ⟨5, _⟩ => ⟨S608x128, .f32⟩
  | .local _ .vmem, ⟨6, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S608x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S608x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S608x10000_S608x10000_0_0 : ∀ a, (![0, 0] : Fin 2 → Nat) a + S608x10000.size a ≤ S608x10000.size a
  h_S608x10000 : 0 < S608x10000.numel
  inb_S608x128_S608x128_0_0 : ∀ a, (![0, 0] : Fin 2 → Nat) a + S608x128.size a ≤ S608x128.size a
  h_S608x128 : 0 < S608x128.numel
  dot_S10000x128_S128x128_S10000x128_1_0_0_1_n_n_wf : DotDims.WF S10000x128 S128x128 S10000x128 [1] [0] [0] [1] [] []
  dot_S608x10000_S10000x128_S608x128_1_0_0_1_n_n_wf : DotDims.WF S608x10000 S10000x128 S608x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S608x10000.size a < S10000x10000.size a
  hwx0_0 : ∀ i : grid0.Coords, EltTy.bits .f32 = 32 ∨ (Rect.unit (s := S10000x10000) (fun a => cc0_transform_0 i a * S608x10000.size a) (fun a => (Pipeline.Clip.of (cc0_transform_0 i a) (S608x10000.size a) (S10000x10000.size a)).extent (S608x10000.size a)) fun a => Pipeline.Clip.inb (Pipeline.Clip.ok_of (hstart0_0 i a))).WholeWords (EltTy.packing .f32)
  hwxs0_0 : ∀ i : grid0.Coords, EltTy.bits .f32 = 32 ∨ (Rect.unit (s := S608x10000) (fun _ => 0) (fun a => (Pipeline.Clip.of (cc0_transform_0 i a) (S608x10000.size a) (S10000x10000.size a)).extent (S608x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S608x128.size a < S10000x128.size a
  hwx0_3 : ∀ i : grid0.Coords, EltTy.bits .f32 = 32 ∨ (Rect.unit (s := S10000x128) (fun a => cc0_transform_3 i a * S608x128.size a) (fun a => (Pipeline.Clip.of (cc0_transform_3 i a) (S608x128.size a) (S10000x128.size a)).extent (S608x128.size a)) fun a => Pipeline.Clip.inb (Pipeline.Clip.ok_of (hstart0_3 i a))).WholeWords (EltTy.packing .f32)
  hwxs0_3 : ∀ i : grid0.Coords, EltTy.bits .f32 = 32 ∨ (Rect.unit (s := S608x128) (fun _ => 0) (fun a => (Pipeline.Clip.of (cc0_transform_3 i a) (S608x128.size a) (S10000x128.size a)).extent (S608x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S608x10000_S10000x128_S608x128_1_0_0_1_n_n : DotDims S608x10000 S10000x128 S608x128 where
  lhsContracting := [1]
  rhsContracting := [0]
  lhsNonContracting := [0]
  rhsNonContracting := [1]
  lhsBatch := []
  rhsBatch := []
  wf := dot_S608x10000_S10000x128_S608x128_1_0_0_1_n_n_wf

abbrev win0_0 : Pipeline.Window sig grid0 :=
  Pipeline.Window.ofSpecClip (Memref.whole main_arg0) S608x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S608x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibWholeLoad.lean ====
/-
  A load of a whole buffer: through the rectangle at zero offsets of the buffer's own sizes, a view reads what it
  reads of the contents, however the zero offsets are spelt.
-/
import Idealize.ShloMosaic.Lib.Pipeline.FrameBody
import Idealize.ShloMosaic.Lib.Pipeline.Value

noncomputable section

namespace Cert.LibWholeLoad

open Idealize.ShloMosaic

/-- A load through the unit rectangle at zero offsets of the shape's own sizes reads the view's contents (for any view,
    shape and element type). -/
theorem readAt_unit_zero {sig' : RefSig} {κ : Kind} {sp : Space} {S : Shape} {e : EltTy} {Val : EltTy → Type}
    (v : View sig' κ sp S e) {off : Fin S.rank → Nat} (h : off = fun _ => 0) (inb : ∀ a, off a + S.size a ≤ S.size a)
    (f : v.ty.Contents Val) : v.readAt Val (Rect.unit off S.size inb).toLoadRect f = v.read Val f := by
  rw [View.readAt_eq_ld]; exact View.ld_unit_zero h inb _

end Cert.LibWholeLoad

end
-- ==== Proof.BitsRun.lean ====
/-
  The kernel body on arbitrary whole buffers, at any float instance.

  The body has two control paths, chosen by the grid coordinate alone. At the first grid point it first stores the
  product of the second and third operands (the feature matrix and the filters) into the scratch buffer, and then,
  as at every other point, stores the product of the first operand's current row block with the scratch into the
  output's buffer. So after any point the scratch holds the product of features and filters, and the output's
  buffer the row block times that product.
-/
import proofs.«169386_g74569222193317_cont_9to1c4b_800_18_alg».proof.Proof.Gen.Kernel.Frame
import proofs.«169386_g74569222193317_cont_9to1c4b_800_18_alg».proof.Proof.Gen.Kernel.Skeleton
import proofs.«169386_g74569222193317_cont_9to1c4b_800_18_alg».proof.Proof.LibWholeLoad
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, as a proposition about the grid coordinate: the point is the first. -/
abbrev isFirst (i : grid0.Coords) : Prop :=
  (Scalar.cmpi .ne (Scalar.extui (Scalar.cmpi .eq (BitVec.ofNat 32 (i 0).val) 0#32)) 0#32) = 1#1

/-- It holds at point 0 and at no other of the seventeen. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The first point: whatever the scratch and the output's buffer held, the scratch ends at the product of the
    second and third operands and the output's buffer at the first operand times that. -/
theorem run_first (c : Dev nD) (i : grid0.Coords)
    (arg1 : Memref sig .tc .vmem S608x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S608x128 .f32) (harg4 : arg4.IsWhole)
    (arg5 : Memref sig .tc .vmem S10000x128 .f32) (harg5 : arg5.IsWhole) (hc : isFirst i)
    (x0 : Vec F S608x10000 .f32) (x1 : Vec F S10000x128 .f32) (x2 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 (k0_pay1 x1 x2)) ∗ owns (c : Thread nD τ) arg5 fullShare (k0_pay1 x1 x2)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d4, %f4, -, H4⟩, ⟨%d5, %f5, -, H5⟩, Hk⟩
  obtain rfl := harg1.eq_unread hf0; obtain rfl := harg2.eq_unread hf1; obtain rfl := harg3.eq_unread hf2
  sl_exec (disch := exact hc)
  sl_step
  iapply Hk
  have hz : (![0, 0] : Fin 2 → Nat) = fun _ => 0 := funext fun a => by fin_cases a <;> rfl
  have r0 := (Cert.LibWholeLoad.readAt_unit_zero arg1.view hz inb_S608x10000_S608x10000_0_0 (harg1.unread x0)).trans hf0
  have r1 := (Cert.LibWholeLoad.readAt_unit_zero arg2.view hz inb_S10000x128_S10000x128_0_0 (harg2.unread x1)).trans hf1
  have r2 := (Cert.LibWholeLoad.readAt_unit_zero arg3.view hz inb_S128x128_S128x128_0_0 (harg3.unread x2)).trans hf2
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H4]
  · iexists _; isplitr; swap; · iexact H4
    ipureintro
    rw [View.read_writes_eq_canon _ _ _ (fun y => ⟨_, List.mem_singleton_self _, View.mem_set_unit_zero hz inb_S608x128_S608x128_0_0 y⟩), View.canon_unit_zero hz]
    sl_unfold_words
    rw [View.readCov_unit_zero _ hz, r0, r1, r2]
  · iexists _; isplitr; swap; · iexact H5
    ipureintro
    sl_unfold_words
    rw [View.read_writes_eq_canon _ _ _ (fun y => ⟨_, List.mem_singleton_self _, View.mem_set_unit_zero hz inb_S10000x128_S10000x128_0_0 y⟩), View.canon_unit_zero hz]
    rw [r1, r2]

set_option maxHeartbeats 1000000 in
/-- Every later point: the scratch is only read, and the output's buffer ends at the first operand times what the
    scratch holds. -/
theorem run_rest (c : Dev nD) (i : grid0.Coords)
    (arg1 : Memref sig .tc .vmem S608x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S608x128 .f32) (harg4 : arg4.IsWhole)
    (arg5 : Memref sig .tc .vmem S10000x128 .f32) (harg5 : arg5.IsWhole) (hc : ¬isFirst i)
    (x0 : Vec F S608x10000 .f32) (x1 : Vec F S10000x128 .f32) (x2 : Vec F S128x128 .f32) (xs : Vec F S10000x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 xs) ∗ owns (c : Thread nD τ) arg5 fullShare xs) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d4, %f4, -, H4⟩, ⟨%f5, %hf5, H5⟩, Hk⟩
  obtain rfl := harg1.eq_unread hf0; obtain rfl := harg2.eq_unread hf1; obtain rfl := harg3.eq_unread hf2
  obtain rfl := harg5.eq_unread hf5
  sl_exec (disch := exact hc)
  sl_step
  iapply Hk
  have hz : (![0, 0] : Fin 2 → Nat) = fun _ => 0 := funext fun a => by fin_cases a <;> rfl
  have r0 := (Cert.LibWholeLoad.readAt_unit_zero arg1.view hz inb_S608x10000_S608x10000_0_0 (harg1.unread x0)).trans hf0
  have r5 := (Cert.LibWholeLoad.readAt_unit_zero arg5.view hz inb_S10000x128_S10000x128_0_0 (harg5.unread xs)).trans hf5
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H4]
  · iexists _; isplitr; swap; · iexact H4
    ipureintro
    rw [View.read_writes_eq_canon _ _ _ (fun y => ⟨_, List.mem_singleton_self _, View.mem_set_unit_zero hz inb_S608x128_S608x128_0_0 y⟩), View.canon_unit_zero hz]
    sl_unfold_words
    rw [r0, r5]
  · iexists _; isplitr; · ipureintro; exact hf5
    iexact H5

end Cert.Kernel.Body

end
-- ==== Proof.BitsFrame.lean ====
/-
  The frame of the program as printed, at any float instance: it runs to the end, nothing faults, and the three
  argument arrays end as launched.

  For the frame nothing need be said of what any buffer holds: the body's loads and stores go through whole buffers
  it owns, whatever they contain, and its one branch reads only the grid coordinate. So the proof data names no
  contents: every staging buffer is handed to the body at some contents and taken back at some contents, and the
  scratch is held at some contents throughout.
-/
import proofs.«169386_g74569222193317_cont_9to1c4b_800_18_alg».proof.Proof.BitsRun
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: a whole scoped buffer of the kernel's own. -/
abbrev scM : Memref sig .tc .vmem S10000x128 .f32 := Memref.whole cc0_scratch0

/-- The region's class invariant with the scratch as an owned memref at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The proof data: the arrays as launched, no buffer's contents named, the class invariant at every point. -/
def dats (_ : Fin 1) (c : Dev nD) : Dat τ (Elt F) Unit ℕ (UR sig nD τ) ℕ cfg0 c where
  A w := V m c (Pipeline.arrRef spec0 w)
  after w t := fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

set_option maxHeartbeats 1600000 in
/-- The body at any point, every window's contents forgotten: whichever branch the point takes, the body runs on
    the buffers it is handed and gives each back at some contents. -/
theorem body_obligation (c : Dev nD) :
    BodyObligationLoose (dats m 0 c) (defs₀ (F := F)) Variants.none () Set.univ (fun _ => true) := fun t => by
  rw [bigSep_W0]
  simp only
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA_eq]
  by_cases hc : isFirst (grid0.coords t)
  · iintro ⟨⟨⟨%ds, HS⟩, Hg⟩, Ho, ⟨%X0, H0⟩, ⟨%X1, H1⟩, ⟨%X2, H2⟩, ⟨%X3, H3⟩⟩
    iapply (run_first (F := F) c (grid0.coords t) (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (Memref.whole cc0_scratch0) (Memref.isWhole_whole _) hc X0 X1 X2 Set.univ _)
    isplitl [H0]; · iexact H0
    isplitl [H1]; · iexact H1
    isplitl [H2]; · iexact H2
    isplitl [H3]; · iexists X3; iexact H3
    isplitl [HS]; · iexists ds; iexact HS
    iintro ⟨H0, H1, H2, H3, HS⟩
    isplitl [HS Hg]
    · isplitl [HS]
      · iexists _; iexact HS
      · iexact Hg
    isplitl [Ho]; · iexact Ho
    isplitl [H0]; · iexists _; iexact H0
    isplitl [H1]; · iexists _; iexact H1
    isplitl [H2]; · iexists _; iexact H2
    · iexists _; iexact H3
  · iintro ⟨⟨⟨%ds, HS⟩, Hg⟩, Ho, ⟨%X0, H0⟩, ⟨%X1, H1⟩, ⟨%X2, H2⟩, ⟨%X3, H3⟩⟩
    iapply (run_rest (F := F) c (grid0.coords t) (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (Memref.whole cc0_scratch0) (Memref.isWhole_whole _) hc X0 X1 X2 ds Set.univ _)
    isplitl [H0]; · iexact H0
    isplitl [H1]; · iexact H1
    isplitl [H2]; · iexact H2
    isplitl [H3]; · iexists X3; iexact H3
    isplitl [HS]; · iexact HS
    iintro ⟨H0, H1, H2, H3, HS⟩
    isplitl [HS Hg]
    · isplitl [HS]
      · iexists _; iexact HS
      · iexact Hg
    isplitl [Ho]; · iexact Ho
    isplitl [H0]; · iexists _; iexact H0
    isplitl [H1]; · iexists _; iexact H1
    isplitl [H2]; · iexists _; iexact H2
    · iexists _; iexact H3

/-- The proof data read relationally, every window forgotten. -/
def rdats (c : Dev nD) : RDat τ (Elt F) Unit ℕ (UR sig nD τ) ℕ cfg0 c := (dats m 0 c).toRForget (fun _ => true)

set_option backward.isDefEq.respectTransparency.types false in
/-- Every weakly fair execution of the program terminates, nothing faulting; each array of the pipeline ends at
    contents the write-backs allow, which for the three operands are the launch contents. -/
theorem run_main :
    θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame: the program runs to the end and its three argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun ((rdats m c).ArrAt_in 0 rfl cfg0.N) _) ((h c).1 0)).trans ((A_eq m c 0).trans (V_main_arg0 m c)),
     (Eq.mp (congrFun ((rdats m c).ArrAt_in 1 rfl cfg0.N) _) ((h c).1 1)).trans ((A_eq m c 1).trans (V_main_arg1 m c)),
     (Eq.mp (congrFun ((rdats m c).ArrAt_in 2 rfl cfg0.N) _) ((h c).1 2)).trans ((A_eq m c 2).trans (V_main_arg2 m c))⟩)
    (run_main m ρ)

end Cert.Kernel.Body

end
-- ==== Proof.IdealRun.lean ====
/-
  The kernel body on arbitrary whole buffers, at any float instance.

  The body has two control paths, chosen by the grid coordinate alone. At the first grid point it first stores the
  product of the second and third operands (the feature matrix and the filters) into the scratch buffer, and then,
  as at every other point, stores the product of the first operand's current row block with the scratch into the
  output's buffer. So after any point the scratch holds the product of features and filters, and the output's
  buffer the row block times that product.
-/
import proofs.«169386_g74569222193317_cont_9to1c4b_800_18_alg».proof.Proof.Gen.KernelIdeal.Frame
import proofs.«169386_g74569222193317_cont_9to1c4b_800_18_alg».proof.Proof.Gen.KernelIdeal.Skeleton
import proofs.«169386_g74569222193317_cont_9to1c4b_800_18_alg».proof.Proof.LibWholeLoad
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, as a proposition about the grid coordinate: the point is the first. -/
abbrev isFirst (i : grid0.Coords) : Prop :=
  (Scalar.cmpi .ne (Scalar.extui (Scalar.cmpi .eq (BitVec.ofNat 32 (i 0).val) 0#32)) 0#32) = 1#1

/-- It holds at point 0 and at no other of the seventeen. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The first point: whatever the scratch and the output's buffer held, the scratch ends at the product of the
    second and third operands and the output's buffer at the first operand times that. -/
theorem run_first (c : Dev nD) (i : grid0.Coords)
    (arg1 : Memref sig .tc .vmem S608x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S608x128 .f32) (harg4 : arg4.IsWhole)
    (arg5 : Memref sig .tc .vmem S10000x128 .f32) (harg5 : arg5.IsWhole) (hc : isFirst i)
    (x0 : Vec F S608x10000 .f32) (x1 : Vec F S10000x128 .f32) (x2 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 (k0_pay1 x1 x2)) ∗ owns (c : Thread nD τ) arg5 fullShare (k0_pay1 x1 x2)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d4, %f4, -, H4⟩, ⟨%d5, %f5, -, H5⟩, Hk⟩
  obtain rfl := harg1.eq_unread hf0; obtain rfl := harg2.eq_unread hf1; obtain rfl := harg3.eq_unread hf2
  sl_exec (disch := exact hc)
  sl_step
  iapply Hk
  have hz : (![0, 0] : Fin 2 → Nat) = fun _ => 0 := funext fun a => by fin_cases a <;> rfl
  have r0 := (Cert.LibWholeLoad.readAt_unit_zero arg1.view hz inb_S608x10000_S608x10000_0_0 (harg1.unread x0)).trans hf0
  have r1 := (Cert.LibWholeLoad.readAt_unit_zero arg2.view hz inb_S10000x128_S10000x128_0_0 (harg2.unread x1)).trans hf1
  have r2 := (Cert.LibWholeLoad.readAt_unit_zero arg3.view hz inb_S128x128_S128x128_0_0 (harg3.unread x2)).trans hf2
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H4]
  · iexists _; isplitr; swap; · iexact H4
    ipureintro
    rw [View.read_writes_eq_canon _ _ _ (fun y => ⟨_, List.mem_singleton_self _, View.mem_set_unit_zero hz inb_S608x128_S608x128_0_0 y⟩), View.canon_unit_zero hz]
    sl_unfold_words
    rw [View.readCov_unit_zero _ hz, r0, r1, r2]
  · iexists _; isplitr; swap; · iexact H5
    ipureintro
    sl_unfold_words
    rw [View.read_writes_eq_canon _ _ _ (fun y => ⟨_, List.mem_singleton_self _, View.mem_set_unit_zero hz inb_S10000x128_S10000x128_0_0 y⟩), View.canon_unit_zero hz]
    rw [r1, r2]

set_option maxHeartbeats 1000000 in
/-- Every later point: the scratch is only read, and the output's buffer ends at the first operand times what the
    scratch holds. -/
theorem run_rest (c : Dev nD) (i : grid0.Coords)
    (arg1 : Memref sig .tc .vmem S608x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S608x128 .f32) (harg4 : arg4.IsWhole)
    (arg5 : Memref sig .tc .vmem S10000x128 .f32) (harg5 : arg5.IsWhole) (hc : ¬isFirst i)
    (x0 : Vec F S608x10000 .f32) (x1 : Vec F S10000x128 .f32) (x2 : Vec F S128x128 .f32) (xs : Vec F S10000x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 xs) ∗ owns (c : Thread nD τ) arg5 fullShare xs) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f0, %hf0, H0⟩, ⟨%f1, %hf1, H1⟩, ⟨%f2, %hf2, H2⟩, ⟨%d4, %f4, -, H4⟩, ⟨%f5, %hf5, H5⟩, Hk⟩
  obtain rfl := harg1.eq_unread hf0; obtain rfl := harg2.eq_unread hf1; obtain rfl := harg3.eq_unread hf2
  obtain rfl := harg5.eq_unread hf5
  sl_exec (disch := exact hc)
  sl_step
  iapply Hk
  have hz : (![0, 0] : Fin 2 → Nat) = fun _ => 0 := funext fun a => by fin_cases a <;> rfl
  have r0 := (Cert.LibWholeLoad.readAt_unit_zero arg1.view hz inb_S608x10000_S608x10000_0_0 (harg1.unread x0)).trans hf0
  have r5 := (Cert.LibWholeLoad.readAt_unit_zero arg5.view hz inb_S10000x128_S10000x128_0_0 (harg5.unread xs)).trans hf5
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H4]
  · iexists _; isplitr; swap; · iexact H4
    ipureintro
    rw [View.read_writes_eq_canon _ _ _ (fun y => ⟨_, List.mem_singleton_self _, View.mem_set_unit_zero hz inb_S608x128_S608x128_0_0 y⟩), View.canon_unit_zero hz]
    sl_unfold_words
    rw [r0, r5]
  · iexists _; isplitr; · ipureintro; exact hf5
    iexact H5

end Cert.KernelIdeal.Body

end
-- ==== Proof.IdealData.lean ====
/-
  The proof data of the one pipeline, and its body obligation, at any float instance.

  Seventeen grid points walk the first operand in row blocks of 608; the last block overhangs the array by 336 rows,
  so its fetch fills only the first 272 rows of the staging buffer and its write-back writes only those rows. After
  the body at a point the first operand's buffer holds its row block (below the array's end: anything), the second
  and third operands' buffers hold the whole feature matrix and the whole filter matrix, the scratch holds their
  product from the first point on, and the output's buffer holds the row block times that product. On the rows inside
  the array the last statement does not depend on what lies below the array's end, provided a row of a matrix product
  depends only on the same row of the left factor: that is the hypothesis `RowLocal`, which the exact instance has.
-/
import proofs.«169386_g74569222193317_cont_9to1c4b_800_18_alg».proof.Proof.IdealRun
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- The scratch operand: a whole scoped buffer of the kernel's own. -/
abbrev scM : Memref sig .tc .vmem S10000x128 .f32 := Memref.whole cc0_scratch0

/-- The region's class invariant with the scratch as an owned memref at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The first grid point. -/
def t0 : Fin cfg0.N := ⟨0, by rw [show cfg0.N = 17 from N_0]; omega⟩

/-- Rows inside the array of a matrix product depend only on the same rows of the left factor. -/
def RowLocal (F : FTy → Type) [FloatOps F] : Prop :=
  ∀ (t : Fin cfg0.N) (a b : Vec F S608x10000 .f32) (xs : Vec F S10000x128 .f32),
    win0_0.cut (grid0.coords t) a = win0_0.cut (grid0.coords t) b →
      win0_3.cut (grid0.coords t) (k0_pay2 a xs) = win0_3.cut (grid0.coords t) (k0_pay2 b xs)

/-! ## What the buffers hold -/

/-- The first operand's row block at point `t`, zero below the array's end. -/
def rowBlk (c : Dev nD) (t : Fin cfg0.N) : S608x10000.Idx → Elt F .f32 :=
  win0_0.fill (grid0.coords t) (fun _ => Scalar.ofBits .f32 0#32) (iblk m c 0 t)

/-- The product of the feature matrix and the filters: what the scratch holds from the first point on. -/
def featFilt (c : Dev nD) : S10000x128.Idx → Elt F .f32 := k0_pay1 (iblk m c 1 t0) (iblk m c 2 t0)

/-- The row block times that product. -/
def outBlk (c : Dev nD) (t : Fin cfg0.N) : S608x128.Idx → Elt F .f32 := k0_pay2 (rowBlk m c t) (featFilt m c)

/-- The invariant before position `n`: before the first point the scratch holds anything; afterwards the product of
    features and filters. -/
def PhiS (c : Dev nD) : ℕ → sProp 𝕄
  | 0 => Pipeline.ΦA spec0 c
  | _ + 1 => iprop(owns (c : Thread nD τ) scM fullShare (featFilt m c) ∗ (∃ r, prngReg c r))

theorem PhiS_pos (c : Dev nD) (n : ℕ) (hn : n ≠ 0) :
    PhiS m c n = iprop(owns (c : Thread nD τ) scM fullShare (featFilt m c) ∗ (∃ r, prngReg c r)) := by
  cases n with
  | zero => exact absurd rfl hn
  | succ n => rfl

/-- The proof data: the arrays as launched; after the body the operands' buffers at their blocks, the output's at the
    row block times the product; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => rowBlk m c t
    | ⟨1, _⟩ => iblk m c 1 t
    | ⟨2, _⟩ => iblk m c 2 t
    | ⟨3, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = rowBlk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlk m c t := by dsimp only [dats]

/-! ## What the body finds -/

/-- The first operand's buffer, fetched at every point: the row block on the rows inside the array, anything below. -/
theorem before_0 (c : Dev nD) (t : Fin cfg0.N) (d) :
    (dats m 0 c).before 0 t d = win0_0.fill (grid0.coords t) d (iblk m c 0 t) := by
  rw [Dat.before_fetched _ 0 t (fetch0_0 t)]; unfold Dat.fetched Dat.blockOf iblk; rw [A_eq]

/-- The second and third operands' buffers hold the whole arrays at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The output's buffer is written back at every point: the body finds anything in it. -/
theorem before_3 (c : Dev nD) (t : Fin cfg0.N) (d) : (dats m 0 c).before 3 t d = d :=
  (dats m 0 c).before_out_reset 3 rfl t
    (by by_cases h : t.val = 0
        · exact .inl h
        · exact .inr ⟨h, flush0_3 _⟩) d

/-! ## The body obligation -/

set_option maxHeartbeats 1600000 in
theorem body_obligation (hrow : RowLocal F) (c : Dev nD) :
    BodyObligationLoose (dats m 0 c) (defs₀ (F := F)) Variants.none () Set.univ := fun t => by
  rw [bigSep_W0, bigSep_W0]
  simp only
  rw [show (dats m 0 c).owesAt () t.succ = (dats m 0 c).owesAt () t.castSucc from rfl]
  rw [show (dats m 0 c).Φ t.succ
      = iprop(owns (c : Thread nD τ) scM fullShare (featFilt m c) ∗ (∃ r, prngReg c r)) from rfl]
  -- what the buffers hold on the rows inside the array does not depend on what lies below them
  have hx : ∀ d, win0_0.cut (grid0.coords t) (win0_0.fill (grid0.coords t) d (iblk m c 0 t)) = iblk m c 0 t :=
    fun d => win0_0.cut_fill _ _ _
  have hout : ∀ d0, win0_3.fill (grid0.coords t) (k0_pay2 (win0_0.fill (grid0.coords t) d0 (iblk m c 0 t)) (featFilt m c))
        (win0_3.cut (grid0.coords t) (outBlk m c t))
      = k0_pay2 (win0_0.fill (grid0.coords t) d0 (iblk m c 0 t)) (featFilt m c) := fun d0 =>
    win0_3.fill_congr_cut (grid0.coords t) (hrow t _ _ _ ((hx d0).trans (hx _).symm))
  by_cases h0 : t.val = 0
  · have ht : t = t0 := Fin.ext h0
    subst ht
    rw [show (dats m 0 c).Φ t0.castSucc = Pipeline.ΦA spec0 c from rfl, PhiA_eq]
    iintro ⟨⟨⟨%ds, HS⟩, Hg⟩, Ho, ⟨%d0, H0⟩, ⟨%d1, H1⟩, ⟨%d2, H2⟩, ⟨%d3, H3⟩⟩
    rw [before_0 m c t0 d0, before_1 m c t0 d1, before_2 m c t0 d2, before_3 m c t0 d3]
    iapply (run_first (F := F) c (grid0.coords t0) (win0_0.stage (cfg0.slots t0 0)) (hstage0_0 ((cfg0.slots t0 0).cast nbuf0_0))
      (win0_1.stage (cfg0.slots t0 1)) (hstage0_1 ((cfg0.slots t0 1).cast nbuf0_1))
      (win0_2.stage (cfg0.slots t0 2)) (hstage0_2 ((cfg0.slots t0 2).cast nbuf0_2))
      (win0_3.stage (cfg0.slots t0 3)) (hstage0_3 ((cfg0.slots t0 3).cast nbuf0_3))
      (Memref.whole cc0_scratch0) (Memref.isWhole_whole _) ((isFirst_iff t0).mpr rfl)
      (win0_0.fill (grid0.coords t0) d0 (iblk m c 0 t0)) (iblk m c 1 t0) (iblk m c 2 t0) Set.univ _)
    isplitl [H0]; · iexact H0
    isplitl [H1]; · iexact H1
    isplitl [H2]; · iexact H2
    isplitl [H3]; · iexists d3; iexact H3
    isplitl [HS]; · iexists ds; iexact HS
    iintro ⟨H0, H1, H2, H3, HS⟩
    rw [show k0_pay1 (iblk m c 1 t0) (iblk m c 2 t0) = featFilt m c from rfl]
    isplitl [HS Hg]
    · isplitl [HS]
      · iexact HS
      · iexact Hg
    isplitl [Ho]; · iexact Ho
    isplitl [H0]
    · iexists d0
      change _ ⊢ owns (c : Thread nD τ) (win0_0.stage (cfg0.slots t0 0)) fullShare
        (win0_0.fill (grid0.coords t0) d0 (win0_0.cut (grid0.coords t0) (rowBlk m c t0)))
      rw [show win0_0.cut (grid0.coords t0) (rowBlk m c t0) = iblk m c 0 t0 from win0_0.cut_fill _ _ _]
    isplitl [H1]; · iexact H1
    isplitl [H2]; · iexact H2
    · iexists (k0_pay2 (win0_0.fill (grid0.coords t0) d0 (iblk m c 0 t0)) (featFilt m c))
      change _ ⊢ owns (c : Thread nD τ) (win0_3.stage (cfg0.slots t0 3)) fullShare
        (win0_3.fill (grid0.coords t0) (k0_pay2 (win0_0.fill (grid0.coords t0) d0 (iblk m c 0 t0)) (featFilt m c))
          (win0_3.cut (grid0.coords t0) (outBlk m c t0)))
      rw [hout d0]
  · rw [show (dats m 0 c).Φ t.castSucc = PhiS m c t.val from rfl, PhiS_pos m c _ h0]
    iintro ⟨⟨HS, Hg⟩, Ho, ⟨%d0, H0⟩, ⟨%d1, H1⟩, ⟨%d2, H2⟩, ⟨%d3, H3⟩⟩
    rw [before_0 m c t d0, before_1 m c t d1, before_2 m c t d2, before_3 m c t d3]
    iapply (run_rest (F := F) c (grid0.coords t) (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (Memref.whole cc0_scratch0) (Memref.isWhole_whole _) (fun h => h0 ((isFirst_iff t).mp h))
      (win0_0.fill (grid0.coords t) d0 (iblk m c 0 t)) (iblk m c 1 t) (iblk m c 2 t) (featFilt m c) Set.univ _)
    isplitl [H0]; · iexact H0
    isplitl [H1]; · iexact H1
    isplitl [H2]; · iexact H2
    isplitl [H3]; · iexists d3; iexact H3
    isplitl [HS]; · iexact HS
    iintro ⟨H0, H1, H2, H3, HS⟩
    isplitl [HS Hg]
    · isplitl [HS]
      · iexact HS
      · iexact Hg
    isplitl [Ho]; · iexact Ho
    isplitl [H0]
    · iexists d0
      change _ ⊢ owns (c : Thread nD τ) (win0_0.stage (cfg0.slots t 0)) fullShare
        (win0_0.fill (grid0.coords t) d0 (win0_0.cut (grid0.coords t) (rowBlk m c t)))
      rw [show win0_0.cut (grid0.coords t) (rowBlk m c t) = iblk m c 0 t from win0_0.cut_fill _ _ _]
    isplitl [H1]; · iexact H1
    isplitl [H2]; · iexact H2
    · iexists (k0_pay2 (win0_0.fill (grid0.coords t) d0 (iblk m c 0 t)) (featFilt m c))
      change _ ⊢ owns (c : Thread nD τ) (win0_3.stage (cfg0.slots t 3)) fullShare
        (win0_3.fill (grid0.coords t) (k0_pay2 (win0_0.fill (grid0.coords t) d0 (iblk m c 0 t)) (featFilt m c))
          (win0_3.cut (grid0.coords t) (outBlk m c t)))
      rw [hout d0]

/-! ## The launch -/

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 17 := N_0; omega), PhiA_eq]
  iintro ⟨HS, Hg⟩
  isplitl [HS]
  · iexists _; iexact HS
  iexact Hg

set_option backward.isDefEq.respectTransparency.types false in
/-- Every weakly fair execution of the program terminates, and every final state has each array of the pipeline at what
    the proof data computes: the operands as launched, the result overwritten block by block. -/
theorem run_main (hrow : RowLocal F) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m hrow) (hshare := fun c => (dats m 0 c).share_full fun _ => rfl)
    (howed := fun _ _ => rfl) (V := V m) (hmain := hmain m Variants.none) (hA := A_eq m) (hin := hin m) (hout := hout m)

/-- The frame: the program runs to the end and its three argument arrays end as launched. -/
theorem frame (hrow : RowLocal F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hrow)

end Cert.KernelIdeal.Body

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibCutEq.lean ====
/-
  A window's cut blocks: contents that agree on the part a transfer moves agree at every index it moves.

  A window whose blocks overhang its array has its transfers cut at the array's end: a fetch fills, and a write-back
  empties, only the leading part of the staging buffer. Two contents of the buffer with the same leading part are
  therefore equal at every index of that part, whatever they hold elsewhere.
-/
import Idealize.ShloMosaic.Lib.Pipeline

noncomputable section

namespace Cert.LibCutEq

open Idealize.ShloMosaic Idealize.ShloMosaic.Pipeline

/-- Contents of a block that agree on the part the transfer at coordinates `i` moves agree at every index it moves
    (for any window of any grid and any element type). -/
theorem eq_of_cut_eq {G : Grid} {sg : RefSig} {α : Type} (w : Window sg G) (i : G.Coords) {X Y : w.block.Idx → α}
    (h : w.cut i X = w.cut i Y) (j : w.block.Idx) (hj : w.moved i j = true) : X j = Y j := by
  have hx := congrFun (w.fill_cut i X) j
  have hy := congrFun (w.fill_cut i Y) j
  unfold Window.fill at hx hy
  rw [dif_pos hj] at hx hy
  rw [← hx, ← hy, h]

end Cert.LibCutEq

end
-- ==== Proof.Spec.lean ====
/-
  The layer, as one function of the three argument arrays over the extended reals.

  With T the 10000 by 10000 propagation matrix, X the 10000 by 128 feature matrix and W the 128 by 128 filters, the
  result at row p and column q is the sum over k of T(p, k) times (X W)(k, q), where (X W)(k, q) is the sum over d of
  X(k, d) W(d, q). Both programs compute the products in this grouping, so no law of the extended reals is needed to
  join them: the two sides are this same iterated sum.
-/
import Idealize.ShloMosaic.PureOps.Ideal
import Idealize.ShloMosaic.Lib.ValueIdx

noncomputable section

namespace Cert.GcnSpec

open Idealize.ShloMosaic Idealize.ShloMosaic.ValueIdx

/-- The features times the filters, entry by entry. -/
def featFilt (x : (⟨2, ![10000, 128]⟩ : Shape).Idx → EReal) (w : (⟨2, ![128, 128]⟩ : Shape).Idx → EReal) :
    (⟨2, ![10000, 128]⟩ : Shape).Idx → EReal :=
  fun j => ∑ d : Fin 128, x (ix2 (j 0) d) * w (ix2 d (j 1))

/-- The propagation matrix times that product, entry by entry. -/
def layer (tr : (⟨2, ![10000, 10000]⟩ : Shape).Idx → EReal) (x : (⟨2, ![10000, 128]⟩ : Shape).Idx → EReal)
    (w : (⟨2, ![128, 128]⟩ : Shape).Idx → EReal) : (⟨2, ![10000, 128]⟩ : Shape).Idx → EReal :=
  fun i => ∑ k : Fin 10000, tr (ix2 (i 0) k) * featFilt x w (ix2 k (i 1))

end Cert.GcnSpec

end
-- ==== Proof.IdealValue.lean ====
/-
  The kernel's result array over the extended reals is the layer of its three arguments.

  Over the extended reals each of the body's two matrix products, read at an entry, is the plain sum over the
  contracted axis. So the scratch holds the feature-filter product entry by entry, and row r of the output's buffer at
  point t is the sum over k of row r of the row block times column q of that product. Row r of the row block at point
  t is row 608 t + r of the propagation matrix whenever that row is inside the array, which is exactly where the
  write-back writes; and the seventeen write-backs cover all 10000 rows (row i is written at point i / 608).
-/
import proofs.«169386_g74569222193317_cont_9to1c4b_800_18_alg».proof.Proof.IdealData
import proofs.«169386_g74569222193317_cont_9to1c4b_800_18_alg».proof.Proof.LibMatmul
import proofs.«169386_g74569222193317_cont_9to1c4b_800_18_alg».proof.Proof.LibCutEq
import proofs.«169386_g74569222193317_cont_9to1c4b_800_18_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

/-! ## The two matrix products at an entry -/

section Dims

theorem d1_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem d1_lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem d1_rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem d1_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

theorem d2_lhs0 (i : S608x128.Idx) (q : dot_S608x10000_S10000x128_S608x128_1_0_0_1_n_n.contr.Idx) :
    (dot_S608x10000_S10000x128_S608x128_1_0_0_1_n_n.lhsIdx i q 0).val = (i 0).val := by
  unfold DotDims.lhsIdx
  rw [dif_neg (show ¬(0 : Fin S608x10000.rank) ∈ dot_S608x10000_S10000x128_S608x128_1_0_0_1_n_n.lhsBatch by decide),
    dif_pos (show (0 : Fin S608x10000.rank) ∈ dot_S608x10000_S10000x128_S608x128_1_0_0_1_n_n.lhsNonContracting by decide)]
  rfl
theorem d2_lhs1 (i : S608x128.Idx) (q : dot_S608x10000_S10000x128_S608x128_1_0_0_1_n_n.contr.Idx) :
    (dot_S608x10000_S10000x128_S608x128_1_0_0_1_n_n.lhsIdx i q 1).val = (q ⟨0, by decide⟩).val :=
  dot_S608x10000_S10000x128_S608x128_1_0_0_1_n_n.lhsIdx_val_of_single rfl i q
theorem d2_rhs0 (i : S608x128.Idx) (q : dot_S608x10000_S10000x128_S608x128_1_0_0_1_n_n.contr.Idx) :
    (dot_S608x10000_S10000x128_S608x128_1_0_0_1_n_n.rhsIdx i q 0).val = (q ⟨0, by decide⟩).val :=
  dot_S608x10000_S10000x128_S608x128_1_0_0_1_n_n.rhsIdx_val_of_single rfl i q
theorem d2_rhs1 (i : S608x128.Idx) (q : dot_S608x10000_S10000x128_S608x128_1_0_0_1_n_n.contr.Idx) :
    (dot_S608x10000_S10000x128_S608x128_1_0_0_1_n_n.rhsIdx i q 1).val = (i 1).val := by
  unfold DotDims.rhsIdx
  rw [dif_neg (show ¬(1 : Fin S10000x128.rank) ∈ dot_S608x10000_S10000x128_S608x128_1_0_0_1_n_n.rhsBatch by decide),
    dif_pos (show (1 : Fin S10000x128.rank) ∈ dot_S608x10000_S10000x128_S608x128_1_0_0_1_n_n.rhsNonContracting by decide)]
  rfl

end Dims

/-- What the body stores into the scratch is the feature-filter product. -/
theorem pay1_eq (x1 : Vec Ideal S10000x128 .f32) (x2 : Vec Ideal S128x128 .f32) :
    k0_pay1 (F := Ideal) x1 x2 = Cert.GcnSpec.featFilt x1 x2 := by
  funext j
  obtain ⟨p, q, rfl⟩ : ∃ (p : Fin 10000) (q : Fin 128), j = ix2 p q := ⟨j 0, j 1, eq_ix2 j⟩
  unfold k0_pay1
  rw [shapeCast_self]
  exact Cert.LibMatmul.matmul_zero_ix2 dot_S10000x128_S128x128_S10000x128_1_0_0_1_n_n rfl rfl d1_lhs0 d1_lhs1 d1_rhs0 d1_rhs1 none x1 x2 p q

/-- What the body stores into the output's buffer, at an entry: the sum over the contracted axis. -/
theorem pay2_apply (a : Vec Ideal S608x10000 .f32) (xs : Vec Ideal S10000x128 .f32) (j : S608x128.Idx) :
    k0_pay2 (F := Ideal) a xs j = ∑ k : Fin 10000, a (ix2 (j 0) k) * xs (ix2 k (j 1)) := by
  obtain ⟨p, q, rfl⟩ : ∃ (p : Fin 608) (q : Fin 128), j = ix2 p q := ⟨j 0, j 1, eq_ix2 j⟩
  unfold k0_pay2
  exact Cert.LibMatmul.matmul_zero_ix2 dot_S608x10000_S10000x128_S608x128_1_0_0_1_n_n rfl rfl d2_lhs0 d2_lhs1 d2_rhs0 d2_rhs1 none a xs p q

/-! ## The windows' index maps and cuts, decided over the grid -/

/-- The row-blocked windows sit at block row `t`, the others at the origin. -/
theorem idx_facts : ∀ t : Fin cfg0.N, win0_0.index t 0 = t.val ∧ win0_0.index t 1 = 0 ∧ win0_3.index t 0 = t.val ∧ win0_3.index t 1 = 0
    ∧ win0_1.index t 0 = 0 ∧ win0_1.index t 1 = 0 ∧ win0_2.index t 0 = 0 ∧ win0_2.index t 1 = 0 :=
  (by decide +kernel : ∀ t : Fin grid0.N, win0_0.index t 0 = t.val ∧ win0_0.index t 1 = 0 ∧ win0_3.index t 0 = t.val ∧ win0_3.index t 1 = 0
    ∧ win0_1.index t 0 = 0 ∧ win0_1.index t 1 = 0 ∧ win0_2.index t 0 = 0 ∧ win0_2.index t 1 = 0)

/-- Both row-blocked windows move the rows inside the array: 608 of them, 272 at the last point; and all columns. -/
theorem cut_facts : ∀ t : Fin cfg0.N, win0_0.xsize (grid0.coords t) 0 = min 608 (10000 - t.val * 608)
    ∧ win0_3.xsize (grid0.coords t) 0 = min 608 (10000 - t.val * 608)
    ∧ win0_0.xsize (grid0.coords t) 1 = 10000 ∧ win0_3.xsize (grid0.coords t) 1 = 128 :=
  (by decide +kernel : ∀ t : Fin grid0.N, win0_0.xsize (grid0.coords t) 0 = min 608 (10000 - t.val * 608)
    ∧ win0_3.xsize (grid0.coords t) 0 = min 608 (10000 - t.val * 608)
    ∧ win0_0.xsize (grid0.coords t) 1 = 10000 ∧ win0_3.xsize (grid0.coords t) 1 = 128)

/-! ## Rows inside the array -/

/-- The fetch of the row block moves every column of a row that is inside the array. -/
theorem moved0 (t : Fin cfg0.N) (p : Fin 608) (k : Fin 10000) (hp : p.val < win0_0.xsize (grid0.coords t) 0) :
    win0_0.moved (grid0.coords t) (ix2 p k) = true := by
  rw [Window.moved_iff]
  intro a
  match a with
  | ⟨0, _⟩ => exact hp
  | ⟨1, _⟩ =>
    have h := (cut_facts t).2.2.1
    exact lt_of_lt_of_eq k.isLt h.symm

/-- Over the extended reals a row of a matrix product depends only on that row of the left factor. -/
theorem rowLocal_ideal : RowLocal Ideal := by
  intro t a b xs hcut
  funext y
  show k0_pay2 (F := Ideal) a xs (win0_3.xinj (grid0.coords t) y) = k0_pay2 (F := Ideal) b xs (win0_3.xinj (grid0.coords t) y)
  rw [pay2_apply, pay2_apply]
  refine Finset.sum_congr rfl fun k _ => ?_
  have hp : (y 0).val < win0_0.xsize (grid0.coords t) 0 := by
    rw [(cut_facts t).1, ← (cut_facts t).2.1]; exact (y 0).isLt
  exact congrArg₂ (· * ·)
    (Cert.LibCutEq.eq_of_cut_eq win0_0 (grid0.coords t) hcut _ (moved0 t (win0_3.xinj (grid0.coords t) y 0 : Fin 608) k hp)) rfl

variable (m : (ℓ : Loc nD τ sig) → Buf (Elt Ideal) ℓ) (ρ : Dev nD → PrngReg)

/-- Where an element of a window's block at point `t` sits in its array: on each axis at the block index times the
    block's size plus its own coordinate; the block indices are `(t, 0)` for the row-blocked windows and the origin
    for the others. -/
theorem blk0_emb0 (t : Fin cfg0.N) (y : (win0_0.xblock (grid0.coords t)).Idx) :
    (((win0_0.blk t).view.emb y : S10000x10000.Idx) 0).val = t.val * 608 + (y 0).val :=
  (win0_0.rect_emb_val t y 0).trans (by rw [(idx_facts t).1]; rfl)
theorem blk0_emb1 (t : Fin cfg0.N) (y : (win0_0.xblock (grid0.coords t)).Idx) :
    (((win0_0.blk t).view.emb y : S10000x10000.Idx) 1).val = (y 1).val :=
  (win0_0.rect_emb_val t y 1).trans (by rw [(idx_facts t).2.1, Nat.zero_mul, Nat.zero_add])
theorem blk3_emb0 (t : Fin cfg0.N) (y : (win0_3.xblock (grid0.coords t)).Idx) :
    (((win0_3.blk t).view.emb y : S10000x128.Idx) 0).val = t.val * 608 + (y 0).val :=
  (win0_3.rect_emb_val t y 0).trans (by rw [(idx_facts t).2.2.1]; rfl)
theorem blk3_emb1 (t : Fin cfg0.N) (y : (win0_3.xblock (grid0.coords t)).Idx) :
    (((win0_3.blk t).view.emb y : S10000x128.Idx) 1).val = (y 1).val :=
  (win0_3.rect_emb_val t y 1).trans (by rw [(idx_facts t).2.2.2.1, Nat.zero_mul, Nat.zero_add])
theorem blk1_emb (t : Fin cfg0.N) (y : (win0_1.xblock (grid0.coords t)).Idx) (a : Fin 2) :
    (((win0_1.blk t).view.emb y : S10000x128.Idx) a).val = (y a).val := by
  match a with
  | ⟨0, _⟩ => exact (win0_1.rect_emb_val t y 0).trans (by rw [(idx_facts t).2.2.2.2.1, Nat.zero_mul, Nat.zero_add]; rfl)
  | ⟨1, _⟩ => exact (win0_1.rect_emb_val t y 1).trans (by rw [(idx_facts t).2.2.2.2.2.1, Nat.zero_mul, Nat.zero_add]; rfl)
theorem blk2_emb (t : Fin cfg0.N) (y : (win0_2.xblock (grid0.coords t)).Idx) (a : Fin 2) :
    (((win0_2.blk t).view.emb y : S128x128.Idx) a).val = (y a).val := by
  match a with
  | ⟨0, _⟩ => exact (win0_2.rect_emb_val t y 0).trans (by rw [(idx_facts t).2.2.2.2.2.2.1, Nat.zero_mul, Nat.zero_add]; rfl)
  | ⟨1, _⟩ => exact (win0_2.rect_emb_val t y 1).trans (by rw [(idx_facts t).2.2.2.2.2.2.2, Nat.zero_mul, Nat.zero_add]; rfl)

/-- A row of the row block that the fetch moves is the propagation matrix's row 608 t + r. -/
theorem rowBlk_apply (c : Dev nD) (t : Fin cfg0.N) (p : Fin 608) (k : Fin 10000) (hp : p.val < win0_0.xsize (grid0.coords t) 0)
    (hrow : t.val * 608 + p.val < 10000) :
    rowBlk m c t (ix2 p k) = m ((c : Thread nD τ).loc main_arg0) (ix2 ⟨t.val * 608 + p.val, hrow⟩ k) := by
  unfold rowBlk Window.fill
  rw [dif_pos (moved0 t p k hp)]
  show m ((c : Thread nD τ).loc main_arg0) ((win0_0.blk t).view.emb _) = _
  refine congrArg (m ((c : Thread nD τ).loc main_arg0)) (funext fun ax => Fin.ext ?_)
  match ax with
  | ⟨0, _⟩ => exact blk0_emb0 t _
  | ⟨1, _⟩ => exact blk0_emb1 t _

/-- The second operand's block is the whole feature matrix. -/
theorem iblk1_eq (c : Dev nD) (t : Fin cfg0.N) : iblk m c 1 t = m ((c : Thread nD τ).loc main_arg1) := by
  funext y
  show m ((c : Thread nD τ).loc main_arg1) ((win0_1.blk t).view.emb y) = _
  exact congrArg (m ((c : Thread nD τ).loc main_arg1)) (funext fun ax => Fin.ext (blk1_emb t y ax))

/-- The third operand's block is the whole filter matrix. -/
theorem iblk2_eq (c : Dev nD) (t : Fin cfg0.N) : iblk m c 2 t = m ((c : Thread nD τ).loc main_arg2) := by
  funext y
  show m ((c : Thread nD τ).loc main_arg2) ((win0_2.blk t).view.emb y) = _
  exact congrArg (m ((c : Thread nD τ).loc main_arg2)) (funext fun ax => Fin.ext (blk2_emb t y ax))

/-- So the scratch holds the feature-filter product of the argument arrays. -/
theorem featFilt_eq (c : Dev nD) :
    Body.featFilt m c = Cert.GcnSpec.featFilt (m ((c : Thread nD τ).loc main_arg1)) (m ((c : Thread nD τ).loc main_arg2)) := by
  unfold Body.featFilt
  rw [pay1_eq, iblk1_eq, iblk2_eq]

/-! ## From the write-backs to the array -/

/-- The layer of the launch contents: what the result array is shown to hold. -/
def G (c : Dev nD) : Buf (Elt Ideal) ((c : Thread nD τ).loc main_v0) :=
  Cert.GcnSpec.layer (m ((c : Thread nD τ).loc main_arg0)) (m ((c : Thread nD τ).loc main_arg1)) (m ((c : Thread nD τ).loc main_arg2))

set_option maxHeartbeats 1000000 in
/-- What point `t` writes back is its block of the layer. -/
theorem flushed_eq (c : Dev nD) (t : Fin cfg0.N) :
    (dats m 0 c).flushed 3 t = (win0_3.blk t).view.read (Elt Ideal) (G m c) := by
  funext y
  show outBlk m c t (win0_3.xinj (grid0.coords t) y) = G m c ((win0_3.blk t).view.emb y)
  unfold outBlk
  rw [pay2_apply, featFilt_eq]
  unfold G Cert.GcnSpec.layer
  have hy0 : (y 0).val < min 608 (10000 - t.val * 608) := lt_of_lt_of_eq (y 0).isLt (cut_facts t).2.1
  have hN : t.val < 17 := lt_of_lt_of_eq t.isLt (show cfg0.N = 17 from N_0)
  have hp : (y 0).val < win0_0.xsize (grid0.coords t) 0 := lt_of_lt_of_eq hy0 (cut_facts t).1.symm
  have hrow : t.val * 608 + (y 0).val < 10000 := by omega
  refine Finset.sum_congr rfl fun k _ => ?_
  refine congrArg₂ (· * ·) ((rowBlk_apply m c t (win0_3.xinj (grid0.coords t) y 0 : Fin 608) k hp hrow).trans ?_) ?_
  · exact congrArg _ (funext fun ax => Fin.ext (by
      match ax with
      | ⟨0, _⟩ => exact (blk3_emb0 t y).symm
      | ⟨1, _⟩ => rfl))
  · exact congrArg _ (funext fun ax => Fin.ext (by
      match ax with
      | ⟨0, _⟩ => rfl
      | ⟨1, _⟩ => exact (blk3_emb1 t y).symm))

/-- An index of the result array is in point `t`'s block iff its row is among the block's rows inside the array. -/
theorem mem_blk (t : Fin cfg0.N) (i : S10000x128.Idx) :
    i ∈ (win0_3.blk t).view.set ↔ t.val * 608 ≤ (i 0 : Nat) ∧ (i 0 : Nat) < t.val * 608 + min 608 (10000 - t.val * 608) := by
  show i ∈ ((View.whole main_v0).slice (win0_3.rect t)).set ↔ _
  rw [View.set_slice_whole, Rect.mem_set_unit]
  have h1 : (i 1 : Nat) < 128 := (i 1).isLt
  have s0 : win0_3.index t 0 * win0_3.size 0 = t.val * 608 := by rw [(idx_facts t).2.2.1]; rfl
  have s1 : win0_3.index t 1 * win0_3.size 1 = 0 := by rw [(idx_facts t).2.2.2.1, Nat.zero_mul]
  refine ⟨fun h => ?_, fun h a => ?_⟩
  · have h0 := h 0
    change win0_3.index t 0 * win0_3.size 0 ≤ (i 0 : Nat) ∧ (i 0 : Nat) < win0_3.index t 0 * win0_3.size 0 + win0_3.xsize (grid0.coords t) 0 at h0
    rw [s0, (cut_facts t).2.1] at h0
    exact h0
  · match a with
    | ⟨0, _⟩ =>
      change win0_3.index t 0 * win0_3.size 0 ≤ (i 0 : Nat) ∧ (i 0 : Nat) < win0_3.index t 0 * win0_3.size 0 + win0_3.xsize (grid0.coords t) 0
      rw [s0, (cut_facts t).2.1]
      exact h
    | ⟨1, _⟩ =>
      change win0_3.index t 1 * win0_3.size 1 ≤ (i 1 : Nat) ∧ (i 1 : Nat) < win0_3.index t 1 * win0_3.size 1 + win0_3.xsize (grid0.coords t) 1
      rw [s1, (cut_facts t).2.2.2]
      omega

/-- Row `i` of the result is written back at point `i / 608`. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : ((i : S10000x128.Idx) 0 : Nat) < 10000 := ((i : S10000x128.Idx) 0).isLt
  refine ⟨⟨((i : S10000x128.Idx) 0 : Nat) / 608, by rw [show cfg0.N = 17 from N_0]; omega⟩, flush0_3 _, ?_⟩
  refine (mem_blk _ (i : S10000x128.Idx)).mpr ?_
  show ((i : S10000x128.Idx) 0 : Nat) / 608 * 608 ≤ ((i : S10000x128.Idx) 0 : Nat)
    ∧ ((i : S10000x128.Idx) 0 : Nat) < ((i : S10000x128.Idx) 0 : Nat) / 608 * 608 + min 608 (10000 - ((i : S10000x128.Idx) 0 : Nat) / 608 * 608)
  omega

/-- The result array after the run is the layer. -/
theorem final (c : Dev nD) : (dats m 0 c).arrAt 3 cfg0.N = G m c :=
  (dats m 0 c).arrAt_eq_of_cover 3 (G m c) (fun t _ => flushed_eq m c t) (cover c)

/-- The run with the result named: every weakly fair execution terminates with the result array at the layer of the
    launch contents and the three arguments as launched. -/
theorem run :
    θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2))⟩)
    (run_main m ρ rowLocal_ideal)

end Cert.KernelIdeal.KValue

end
-- ==== Proof.RefValue.lean ====
/-
  The reference computes the layer: its two matrix products, read entry by entry, are the iterated sum.
-/
import proofs.«169386_g74569222193317_cont_9to1c4b_800_18_alg».proof.Proof.Gen.ReferenceIdeal.Read
import proofs.«169386_g74569222193317_cont_9to1c4b_800_18_alg».proof.Proof.Spec

noncomputable section

namespace Cert.ReferenceIdeal.RefValue

open Cert.ReferenceIdeal Cert.ReferenceIdeal.Gen Idealize.ShloMosaic Idealize.ShloMosaic.ValueIdx

/-- The reference's result term is the layer of its three arguments: the outer product's left index is (row, k), its
    right index (k, column), and the inner product is the feature-filter product at that entry. -/
theorem ref_eq (x0 : (⟨S10000x10000, .f32⟩ : BufTy).Contents (Elt Ideal)) (x1 : (⟨S10000x128, .f32⟩ : BufTy).Contents (Elt Ideal))
    (x2 : (⟨S128x128, .f32⟩ : BufTy).Contents (Elt Ideal)) :
    Read.val_main_v1 (F := Ideal) x0 x1 x2 = Cert.GcnSpec.layer x0 x1 x2 := by
  funext i
  rw [Read.val_main_v1_apply]
  unfold Cert.GcnSpec.layer
  refine Finset.sum_congr rfl fun k _ => ?_
  rw [Read.val_main_v0_apply]
  unfold Cert.GcnSpec.featFilt
  have e1 : Read.lidx_main_v1 i k = ix2 (i 0) k := funext fun a => Fin.ext (by
    match a with
    | ⟨0, _⟩ => rfl
    | ⟨1, _⟩ => rfl)
  rw [e1]
  congr 1
  refine Finset.sum_congr rfl fun d _ => ?_
  have e2 : Read.lidx_main_v0 (Read.ridx_main_v1 i k) d = ix2 ((ix2 k (i 1) : S10000x128.Idx) 0) d := funext fun a => Fin.ext (by
    match a with
    | ⟨0, _⟩ => rfl
    | ⟨1, _⟩ => rfl)
  have e3 : Read.ridx_main_v0 (Read.ridx_main_v1 i k) d = ix2 d ((ix2 k (i 1) : S10000x128.Idx) 1) := funext fun a => Fin.ext (by
    match a with
    | ⟨0, _⟩ => rfl
    | ⟨1, _⟩ => rfl)
  rw [e2, e3]
  rfl

end Cert.ReferenceIdeal.RefValue

end
-- ==== Proof.lean ====
/-
  One graph-convolution layer, out = T (X W), computed by a kernel that walks the 10000 by 10000 propagation matrix T
  in seventeen row blocks of 608 rows (the last one 272 rows inside the array), forms X W once at the first grid point
  into a scratch buffer it keeps for the rest of the grid, and at every point multiplies the current row block by it.
  The reference is the same two matrix products on the whole arrays.

  Over the extended reals every matrix product into a zero accumulator is the plain sum over the contracted axis, so
  entry (p, q) of either program's result is the sum over k of T(p, k) times the sum over d of X(k, d) W(d, q): the
  same iterated sum, grouped the same way, and no law of the extended reals beyond reading the products entry by
  entry is needed; the finiteness of the inputs is never used. What makes the kernel's side more than that reading
  is the last row block: its fetch fills only the 272 rows that are inside T, the rows below hold nothing that can be
  named, and the body multiplies them all the same. A row of a product depends only on the same row of the left factor,
  so the 272 rows of the result that the write-back writes are the right ones whatever lay below.

  The pieces: the body run at a point on whole buffers (one lemma per control path); the proof data and the body
  obligation with the scratch tracked from the first point on; the result array as the layer by covering its rows
  with the seventeen write-backs; the reference's run read entry by entry; and, for the program at bit patterns, the
  frame alone with no contents named.
-/
import proofs.«169386_g74569222193317_cont_9to1c4b_800_18_alg».proof.Defs
import proofs.«169386_g74569222193317_cont_9to1c4b_800_18_alg».proof.Proof.Gen.Kernel
import proofs.«169386_g74569222193317_cont_9to1c4b_800_18_alg».proof.Proof.Gen.KernelIdeal
import proofs.«169386_g74569222193317_cont_9to1c4b_800_18_alg».proof.Proof.Gen.ReferenceIdeal
import proofs.«169386_g74569222193317_cont_9to1c4b_800_18_alg».proof.Proof.Gen.Pre_finite_inputs
import proofs.«169386_g74569222193317_cont_9to1c4b_800_18_alg».proof.Proof.BitsFrame
import proofs.«169386_g74569222193317_cont_9to1c4b_800_18_alg».proof.Proof.IdealValue
import proofs.«169386_g74569222193317_cont_9to1c4b_800_18_alg».proof.Proof.RefValue
import Idealize.ShloMosaic.Adequacy
import Idealize.ShloMosaic.Init

noncomputable section

namespace Cert.Proof

open Idealize.ShloMosaic Idealize.SL.Sem

/-- The program at bit patterns runs to the end and leaves its arguments as launched. -/
theorem frame_k : Cert.frame_Kernel := fun m ρ _ => Cert.Kernel.Body.frame (F := Bits) m ρ

/-- So does the program over the extended reals. -/
theorem frame_ki : Cert.frame_KernelIdeal := fun m ρ _ =>
  Cert.KernelIdeal.Body.frame (F := Ideal) m ρ Cert.KernelIdeal.KValue.rowLocal_ideal

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the result array at the layer of those
    arguments. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v1_eq _ _ _).trans (Cert.ReferenceIdeal.RefValue.ref_eq _ _ _)).trans ?_
  rw [(hagree c).1, (hagree c).2.1, (hagree c).2.2] <;> rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
